-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x257 : Shape := ⟨2, ![256, 257]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x257 : S_.BroadcastsInDim S256x257 (![] : Fin 0 → Fin S256x257.rank)
  reducesTo_S256x257_S_d0_1 : S256x257.ReducesTo [0, 1] S_

variable [Facts]

def fn {F : FTy → Type} [FloatOps F] (main_arg0 : FVec F S2048x256 .f32) (main_arg1 : FVec F S256x257 .f32) (main_arg2 : FVec F S256x257 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x257 .f32 := Host.absf main_arg1
  let main_cst_0 : FVec F S_ .f32 := constant S_ .f32 0x7F800000#32
  let main_v5 : FVec F S256x257 .f32 := broadcastInDim S256x257 ![] bcast_S_S256x257 main_cst_0
  let main_v6 : IVec S256x257 1 := cmpf .olt main_v4 main_v5
  let main_c_1 : IVec S_ 1 := constantI S_ 1 1#1
  let main_v7 : IVec S_ 1 := (fun x v => Host.reduce IntOp.andi x v reducesTo_S256x257_S_d0_1 h_S_) main_v6 main_c_1
  let main_v8 : IVec S_ 1 := andi main_v3 main_v7
  let main_v9 : FVec F S256x257 .f32 := Host.absf main_arg2
  let main_cst_2 : FVec F S_ .f32 := constant S_ .f32 0x7F800000#32
  let main_v10 : FVec F S256x257 .f32 := broadcastInDim S256x257 ![] bcast_S_S256x257 main_cst_2
  let main_v11 : IVec S256x257 1 := cmpf .olt main_v9 main_v10
  let main_c_3 : IVec S_ 1 := constantI S_ 1 1#1
  let main_v12 : IVec S_ 1 := (fun x v => Host.reduce IntOp.andi x v reducesTo_S256x257_S_d0_1 h_S_) main_v11 main_c_3
  let main_v13 : IVec S_ 1 := andi main_v8 main_v12
  main_v13
-- ==== Kernel.lean ====
abbrev S2048x256 : Shape := ⟨2, ![2048, 256]⟩
abbrev S256x257 : Shape := ⟨2, ![256, 257]⟩
abbrev S256x256 : Shape := ⟨2, ![256, 256]⟩
abbrev S256x1 : Shape := ⟨2, ![256, 1]⟩
abbrev S256 : Shape := ⟨1, ![256]⟩
abbrev S1x256 : Shape := ⟨2, ![1, 256]⟩
abbrev S64x256 : Shape := ⟨2, ![64, 256]⟩
abbrev S64x128 : Shape := ⟨2, ![64, 128]⟩
abbrev S256x128 : Shape := ⟨2, ![256, 128]⟩
abbrev S1x256x128 : Shape := ⟨3, ![1, 256, 128]⟩
abbrev S64x1x128 : Shape := ⟨3, ![64, 1, 128]⟩
abbrev S64x256x128 : Shape := ⟨3, ![64, 256, 128]⟩

abbrev nBuf : Space → Nat
  | .hbm => 13
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S256x257, .f32⟩
  | .hbm, ⟨2, _⟩ => ⟨S256x257, .f32⟩
  | .hbm, ⟨3, _⟩ => ⟨S256x256, .f32⟩
  | .hbm, ⟨4, _⟩ => ⟨S256x256, .f32⟩
  | .hbm, ⟨5, _⟩ => ⟨S256x1, .f32⟩
  | .hbm, ⟨6, _⟩ => ⟨S256, .f32⟩
  | .hbm, ⟨7, _⟩ => ⟨S256x1, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S1x256, .f32⟩
  | .hbm, ⟨12, _⟩ => ⟨S2048x256, .f32⟩
  | .local _ .vmem, ⟨0, _⟩ => ⟨S64x256, .f32⟩
  | .local _ .vmem, ⟨1, _⟩ => ⟨S64x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S64x256, .f32⟩
  | .local _ .vmem, ⟨6, _⟩ => ⟨S64x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S256x257_S256x256_0_0 : S256x257.Slices ![0, 0] S256x256
  slices_S256x257_S256x1_0_256 : S256x257.Slices ![0, 256] S256x1
  shapeCasts_S256x1_S256 : S256x1.ShapeCasts S256
  shapeCasts_S256_S1x256 : S256.ShapeCasts S1x256
  inb_S64x256_S64x128_0_0 : ∀ a, (![0, 0] : Fin 2 → Nat) a + S64x128.size a ≤ S64x256.size a
  h_S64x128 : 0 < S64x128.numel
  inb_S256x256_S256x128_0_0 : ∀ a, (![0, 0] : Fin 2 → Nat) a + S256x128.size a ≤ S256x256.size a
  h_S256x128 : 0 < S256x128.numel
  shapeCasts_S256x128_S256x128 : S256x128.ShapeCasts S256x128
  shapeCasts_S256x128_S1x256x128 : S256x128.ShapeCasts S1x256x128
  shapeCasts_S64x128_S64x1x128 : S64x128.ShapeCasts S64x1x128
  broadcasts_S1x256x128_S64x256x128 : S1x256x128.Broadcasts S64x256x128
  broadcasts_S64x1x128_S64x256x128 : S64x1x128.Broadcasts S64x256x128
  reduces_S64x256x128_S64x256 : S64x256x128.Reduces [2] S64x256
  inb_S64x256_S64x128_0_128 : ∀ a, (![0, 128] : Fin 2 → Nat) a + S64x128.size a ≤ S64x256.size a
  inb_S256x256_S256x128_0_128 : ∀ a, (![0, 128] : Fin 2 → Nat) a + S256x128.size a ≤ S256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S2048x256.size a
  hwx0_0 : ∀ i : grid0.Coords, EltTy.bits .f32 = 32 ∨ (Rect.block (s := S2048x256) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S2048x256.size a
  hwx0_4 : ∀ i : grid0.Coords, EltTy.bits .f32 = 32 ∨ (Rect.block (s := S2048x256) S64x256.size (cc0_transform_4 i) (hinb0_4 i)).WholeWords (EltTy.packing .f32)

variable [Facts₀]

abbrev win0_0 : Pipeline.Window sig grid0 :=
  Pipeline.Window.ofSpec (Memref.whole main_arg0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x257 : Shape := ⟨2, ![256, 257]⟩
abbrev S_ : Shape := ⟨0, ![]⟩
abbrev S2048x1 : Shape := ⟨2, ![2048, 1]⟩
abbrev S2048x257 : Shape := ⟨2, ![2048, 257]⟩
abbrev S1x256x257 : Shape := ⟨3, ![1, 256, 257]⟩
abbrev S2048x1x257 : Shape := ⟨3, ![2048, 1, 257]⟩
abbrev S2048x256x257 : Shape := ⟨3, ![2048, 256, 257]⟩

abbrev nBuf : Space → Nat
  | .hbm => 17
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x257, .f32⟩
  | .hbm, ⟨2, _⟩ => ⟨S256x257, .f32⟩
  | .hbm, ⟨3, _⟩ => ⟨S_, .f32⟩
  | .hbm, ⟨4, _⟩ => ⟨S2048x1, .f32⟩
  | .hbm, ⟨5, _⟩ => ⟨S2048x257, .f32⟩
  | .hbm, ⟨6, _⟩ => ⟨S1x256x257, .f32⟩
  | .hbm, ⟨7, _⟩ => ⟨S1x256x257, .f32⟩
  | .hbm, ⟨8, _⟩ => ⟨S2048x1x257, .f32⟩
  | .hbm, ⟨9, _⟩ => ⟨S2048x256x257, .f32⟩
  | .hbm, ⟨10, _⟩ => ⟨S2048x256x257, .f32⟩
  | .hbm, ⟨11, _⟩ => ⟨S2048x256x257, .f32⟩
  | .hbm, ⟨12, _⟩ => ⟨S2048x256x257, .f32⟩
  | .hbm, ⟨13, _⟩ => ⟨S2048x256x257, .f32⟩
  | .hbm, ⟨14, _⟩ => ⟨S2048x256x257, .f32⟩
  | .hbm, ⟨15, _⟩ => ⟨S_, .f32⟩
  | .hbm, ⟨16, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S2048x1 : S_.BroadcastsInDim S2048x1 (![] : Fin 0 → Fin S2048x1.rank)
  concatenates_S2048x256_S2048x1_S2048x257_d1 : Shape.Concatenates [S2048x256, S2048x1] S2048x257 1
  bcast_S256x257_S1x256x257_1_2 : S256x257.BroadcastsInDim S1x256x257 (![1, 2] : Fin 2 → Fin S1x256x257.rank)
  bcast_S2048x257_S2048x1x257_0_2 : S2048x257.BroadcastsInDim S2048x1x257 (![0, 2] : Fin 2 → Fin S2048x1x257.rank)
  bcast_S1x256x257_S2048x256x257_0_1_2 : S1x256x257.BroadcastsInDim S2048x256x257 (![0, 1, 2] : Fin 3 → Fin S2048x256x257.rank)
  bcast_S2048x1x257_S2048x256x257_0_1_2 : S2048x1x257.BroadcastsInDim S2048x256x257 (![0, 1, 2] : Fin 3 → Fin S2048x256x257.rank)
  reducesTo_S2048x256x257_S2048x256_d2 : S2048x256x257.ReducesTo [2] S2048x256
  h_S_ : 0 < S_.numel

variable [Facts₀]

class Facts : Prop extends Facts₀ where

variable [Facts]
-- ==== Proof.LibLayoutRank3.lean ====
/-
  Three re-layings between rank 2 and rank 3, read at an index given by its coordinates.

  A product `p[i, j, l] = u[i, j] · v[j, l]` over a common three-axis index set is formed by giving `u` a trailing axis of
  extent one and `v` a leading axis of extent one, then repeating each along its new axis. Read at `(i, j, l)`:
    * `[a, b] → [a, b, 1]`, a cast: the entry at `(i, j, 0)` is the operand's at `(i, j)` (same row-major position);
    * `[a, b, 1] → [a, b, c]`, a broadcast: the entry at `(i, j, l)` is the operand's at `(i, j, 0)`;
    * `[1, b, c] → [a, b, c]`, a broadcast: the entry at `(i, j, l)` is the operand's at `(0, j, l)`.
  (The cast `[a, b] → [1, a, b]` is the library's `shapeCast_ab_1ab_apply`.) The extents are arbitrary naturals; on an axis
  whose extent happens to be one the only coordinate is 0, which is what a broadcast reads there anyway.
-/
import Idealize.ShloMosaic.Lib.Pipeline.Value
import Idealize.ShloMosaic.Lib.ValueIdx

namespace Cert.LayoutRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

end Cert.LayoutRank3
-- ==== Proof.LibMiddleUnitAxis.lean ====
/-
  A general layout lemma: a unit axis inserted in the MIDDLE of a rank-2 shape.
-/
import Idealize.ShloMosaic.Lib.Pipeline.Value
import Idealize.ShloMosaic.Lib.ValueIdx

namespace Idealize.ShloMosaic.ValueIdx

variable {α : Type}

/-- An `[a, b]` array cast to `[a, 1, b]` reads, at `(i, u, j)`, the operand at `(i, j)`, whatever the unit
    coordinate `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.LibOuterPair.lean ====
/-
  The two halves of an outer pairing `x[:, :, None] ∘ x[:, None, :]`, read at an index given by its coordinates.

  A rank-2 array `A` of extents `[a, b]` enters an all-pairs computation over `[a, b, b]` twice: once with a trailing unit axis,
  repeated along it, so that position `(r, i, j)` reads `A (r, i)`; once with a unit axis in the middle, repeated along it, so that
  position `(r, i, j)` reads `A (r, j)`. Also here: the broadcast `[a, 1, c] → [a, b, c]` by itself, and a rank-3 array whose
  three extents are one cast to the rank-2 array of the same kind.
-/
import proofs.«166221_j59313498358102_2_alg».proof.Proof.LibLayoutRank3
import proofs.«166221_j59313498358102_2_alg».proof.Proof.LibMiddleUnitAxis
import Idealize.ShloMosaic.Lib.Pipeline.Value
import Idealize.ShloMosaic.Lib.ValueIdx

namespace Cert.OuterPair

open Idealize.ShloMosaic Idealize.ShloMosaic.ValueIdx Cert.LayoutRank3

variable {α : Type}

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- The left half of the pairing: `A` with a trailing unit axis, repeated along it, reads `A (r, i)` at `(r, i, j)`. -/
theorem left_apply {a b c : ℕ} (A : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (r : Fin a) (i : Fin b) (j : Fin c) :
    broadcastTo ⟨3, ![a, b, c]⟩ (shapeCast ⟨3, ![a, b, 1]⟩ A h) h' (ix3 r i j) = A (ix2 r i) :=
  (broadcastTo_ab1_abc_apply _ h' r i j).trans (shapeCast_ab_ab1_apply A h r i 0)

/-- The right half of the pairing: `A` with a unit axis in the middle, repeated along it, reads `A (r, j)` at `(r, i, j)`. -/
theorem right_apply {a b c : ℕ} (A : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (r : Fin a) (i : Fin b) (j : Fin c) :
    broadcastTo ⟨3, ![a, b, c]⟩ (shapeCast ⟨3, ![a, 1, c]⟩ A h) h' (ix3 r i j) = A (ix2 r j) :=
  (broadcastTo_a1c_abc_apply _ h' r i j).trans (shapeCast_ab_a1b_apply A h r 0 j)

/-- A `[1, 1, 1]` array cast to `[1, 1]`: the one entry. -/
theorem shapeCast_111_11_apply (x : (⟨3, ![1, 1, 1]⟩ : Shape).Idx → α)
    (h : (⟨3, ![1, 1, 1]⟩ : Shape).ShapeCasts ⟨2, ![1, 1]⟩) :
    shapeCast ⟨2, ![1, 1]⟩ x h (ix2 (0 : Fin 1) (0 : Fin 1)) = x (ix3 (0 : Fin 1) (0 : Fin 1) (0 : Fin 1)) :=
  shapeCast_apply x h _ _ (by rw [Shape.rowMajor_val_three, Shape.rowMajor_val_two]; rfl)

end Cert.OuterPair
-- ==== Proof.LibRank3Reduce.lean ====
/-
  One-axis reductions of a rank-3 array, read at an entry, over the extended reals.

  For an array `src` of extents [a, b, c]:
    * summed over its last axis, entry (p, i) of the [a, b] result is Σ_l src (p, i, l);
    * summed over its middle axis, entry (p, l) of the [a, c] result is Σ_i src (p, i, l);
    * its maximum over the last axis, started from the word −inf, is the fold of `max` from that word's value over l.
  And the all-pairs form built on the first: for `z` of extents [a, b] and `y` of extents [a, c], the array
  |z[p, i] − y[p, l]| over [a, b, c] (z given a trailing unit axis, y a middle one, each repeated along it), summed over its
  last axis, has at (p, i) the sum over l of |z (p, i) − y (p, l)|, an absolute value being `max x (−x)`.
  Nothing is asked of the entries: the statements hold at +∞ and −∞.
-/
import proofs.«166221_j59313498358102_2_alg».proof.Proof.LibOuterPair
import Idealize.ShloMosaic.PureOps.Ideal.Laws
import Idealize.ShloMosaic.Lib.ValueIdx
import Idealize.ShloMosaic.Lib.Pipeline.Value

noncomputable section

namespace Cert.Rank3Reduce

open Idealize.ShloMosaic Idealize.ShloMosaic.ValueIdx

variable {a b c : ℕ}

/-- A sum over the last axis: entry (p, i) is Σ_l src (p, i, l). -/
theorem sum_last_apply (src : FVec Ideal ⟨3, ![a, b, c]⟩ .f32) (h : (⟨3, ![a, b, c]⟩ : Shape).Reduces [2] ⟨2, ![a, b]⟩)
    (hφ : FKind.Formats .f32) (hacc : (0x00000000#32 : BitVec 32) = 0x00000000#32) (p : Fin a) (i : Fin b) :
    multiReduction .add [2] ⟨2, ![a, b]⟩ src 0x00000000#32 h hφ hacc (ix2 p i) = ∑ l : Fin c, src (ix3 p i l) :=
  (Ideal.multiReduction_add_single src 0x00000000#32 h hφ hacc (ix2 p i)).trans
    (Finset.sum_congr rfl fun l _ => congrArg src (funext fun ax => Fin.ext (by
      match ax with
      | ⟨0, _⟩ => rfl
      | ⟨1, _⟩ => rfl
      | ⟨2, _⟩ => rfl)))

/-- A sum over the middle axis: entry (p, l) is Σ_i src (p, i, l). -/
theorem sum_mid_apply (src : FVec Ideal ⟨3, ![a, b, c]⟩ .f32) (h : (⟨3, ![a, b, c]⟩ : Shape).Reduces [1] ⟨2, ![a, c]⟩)
    (hφ : FKind.Formats .f32) (hacc : (0x00000000#32 : BitVec 32) = 0x00000000#32) (p : Fin a) (l : Fin c) :
    multiReduction .add [1] ⟨2, ![a, c]⟩ src 0x00000000#32 h hφ hacc (ix2 p l) = ∑ i : Fin b, src (ix3 p i l) :=
  (Ideal.multiReduction_add_single src 0x00000000#32 h hφ hacc (ix2 p l)).trans
    (Finset.sum_congr rfl fun i _ => congrArg src (funext fun ax => Fin.ext (by
      match ax with
      | ⟨0, _⟩ => rfl
      | ⟨1, _⟩ => rfl
      | ⟨2, _⟩ => rfl)))

/-- A maximum over the last axis, started from −inf: the fold of `max` over l from that word's value. -/
theorem max_last_apply (src : FVec Ideal ⟨3, ![a, b, c]⟩ .f32) (h : (⟨3, ![a, b, c]⟩ : Shape).Reduces [2] ⟨2, ![a, b]⟩)
    (hφ : FKind.Formats .f32) (hacc : (0xFF800000#32 : BitVec 32) = 0xFF800000#32) (p : Fin a) (i : Fin b) :
    multiReduction .maximumf [2] ⟨2, ![a, b]⟩ src 0xFF800000#32 h hφ hacc (ix2 p i)
      = (Finset.univ : Finset (Fin c)).fold max (Ideal.ofBits .f32 0xFF800000#32) (fun l => src (ix3 p i l)) :=
  (Ideal.multiReduction_maximumf_single src 0xFF800000#32 h hφ hacc (ix2 p i)).trans
    (congrArg ((Finset.univ : Finset (Fin c)).fold max (Ideal.ofBits .f32 0xFF800000#32))
      (funext fun l => congrArg src (funext fun ax => Fin.ext (by
        match ax with
        | ⟨0, _⟩ => rfl
        | ⟨1, _⟩ => rfl
        | ⟨2, _⟩ => rfl))))

/-- The all-pairs absolute differences of `z` against `y`, summed over the positions of `y`. -/
theorem abs_pair_sum_apply (z : FVec Ideal ⟨2, ![a, b]⟩ .f32) (y : FVec Ideal ⟨2, ![a, c]⟩ .f32)
    (h1 : (⟨2, ![a, b]⟩ : Shape).ShapeCasts ⟨3, ![a, b, 1]⟩) (h2 : (⟨3, ![a, b, 1]⟩ : Shape).Broadcasts ⟨3, ![a, b, c]⟩)
    (h3 : (⟨2, ![a, c]⟩ : Shape).ShapeCasts ⟨3, ![a, 1, c]⟩) (h4 : (⟨3, ![a, 1, c]⟩ : Shape).Broadcasts ⟨3, ![a, b, c]⟩)
    (h : (⟨3, ![a, b, c]⟩ : Shape).Reduces [2] ⟨2, ![a, b]⟩)
    (hφ : FKind.Formats .f32) (hacc : (0x00000000#32 : BitVec 32) = 0x00000000#32) (p : Fin a) (i : Fin b) :
    multiReduction .add [2] ⟨2, ![a, b]⟩
        (absf (subf (broadcastTo ⟨3, ![a, b, c]⟩ (shapeCast ⟨3, ![a, b, 1]⟩ z h1) h2)
          (broadcastTo ⟨3, ![a, b, c]⟩ (shapeCast ⟨3, ![a, 1, c]⟩ y h3) h4)))
        0x00000000#32 h hφ hacc (ix2 p i)
      = ∑ l : Fin c, max (z (ix2 p i) - y (ix2 p l)) (-(z (ix2 p i) - y (ix2 p l))) := by
  refine (sum_last_apply _ h hφ hacc p i).trans (Finset.sum_congr rfl fun l _ => ?_)
  show max (broadcastTo ⟨3, ![a, b, c]⟩ (shapeCast ⟨3, ![a, b, 1]⟩ z h1) h2 (ix3 p i l)
        - broadcastTo ⟨3, ![a, b, c]⟩ (shapeCast ⟨3, ![a, 1, c]⟩ y h3) h4 (ix3 p i l))
      (-(broadcastTo ⟨3, ![a, b, c]⟩ (shapeCast ⟨3, ![a, b, 1]⟩ z h1) h2 (ix3 p i l)
        - broadcastTo ⟨3, ![a, b, c]⟩ (shapeCast ⟨3, ![a, 1, c]⟩ y h3) h4 (ix3 p i l))) = _
  rw [Cert.OuterPair.left_apply z h1 h2 p i l, Cert.OuterPair.right_apply y h3 h4 p i l]

end Cert.Rank3Reduce

end
-- ==== Proof.ChunkSum.lean ====
/-
  One chunk of the sum, as the kernel's body forms it.

  For a chunk of `c` indices the body holds the matching columns of the two tables, `wt` and `w` of extents [b, c], and of the
  rows of `x` it works on, of extents [a, c]. It gives each table a leading axis of extent one and repeats it `a` times, gives
  `x` a middle axis of extent one and repeats it `b` times, and so forms over [a, b, c] the array

      wt[o, k] · sin (w[o, k] · x[r, k])          at (r, o, k),

  which it sums over its last axis. Entry (r, o) of the result is therefore Σ_k wt[o, k] · sin (w[o, k] · x[r, k]).
-/
import proofs.«166221_j59313498358102_2_alg».proof.Proof.LibRank3Reduce
import Idealize.ShloMosaic.Lib.ValueLayout
import Idealize.ShloMosaic.PureOps.Ideal.Laws

noncomputable section

namespace Cert.SinSum

open Idealize.ShloMosaic Idealize.ShloMosaic.ValueIdx

variable {a b c : ℕ}

/-- The lane sum of one chunk, read at entry (r, o). -/
theorem chunk_apply (wt w : FVec Ideal ⟨2, ![b, c]⟩ .f32) (x : FVec Ideal ⟨2, ![a, c]⟩ .f32)
    (hs : (⟨2, ![b, c]⟩ : Shape).ShapeCasts ⟨2, ![b, c]⟩)
    (h1 : (⟨2, ![b, c]⟩ : Shape).ShapeCasts ⟨3, ![1, b, c]⟩)
    (h2 : (⟨3, ![1, b, c]⟩ : Shape).Broadcasts ⟨3, ![a, b, c]⟩)
    (h3 : (⟨2, ![a, c]⟩ : Shape).ShapeCasts ⟨3, ![a, 1, c]⟩)
    (h4 : (⟨3, ![a, 1, c]⟩ : Shape).Broadcasts ⟨3, ![a, b, c]⟩)
    (h : (⟨3, ![a, b, c]⟩ : Shape).Reduces [2] ⟨2, ![a, b]⟩)
    (hφ : FKind.Formats .f32) (hacc : (0x00000000#32 : BitVec 32) = 0x00000000#32) (r : Fin a) (o : Fin b) :
    multiReduction .add [2] ⟨2, ![a, b]⟩
        (mulf (broadcastTo ⟨3, ![a, b, c]⟩ (shapeCast ⟨3, ![1, b, c]⟩ (shapeCast ⟨2, ![b, c]⟩ wt hs) h1) h2)
          (sin (mulf (broadcastTo ⟨3, ![a, b, c]⟩ (shapeCast ⟨3, ![1, b, c]⟩ (shapeCast ⟨2, ![b, c]⟩ w hs) h1) h2)
            (broadcastTo ⟨3, ![a, b, c]⟩ (shapeCast ⟨3, ![a, 1, c]⟩ x h3) h4))))
        0x00000000#32 h hφ hacc (ix2 r o)
      = ∑ k : Fin c, wt (ix2 o k) * Ideal.sin (w (ix2 o k) * x (ix2 r k)) := by
  refine (Cert.Rank3Reduce.sum_last_apply _ h hφ hacc r o).trans (Finset.sum_congr rfl fun k _ => ?_)
  show broadcastTo ⟨3, ![a, b, c]⟩ (shapeCast ⟨3, ![1, b, c]⟩ (shapeCast ⟨2, ![b, c]⟩ wt hs) h1) h2 (ix3 r o k)
      * Ideal.sin (broadcastTo ⟨3, ![a, b, c]⟩ (shapeCast ⟨3, ![1, b, c]⟩ (shapeCast ⟨2, ![b, c]⟩ w hs) h1) h2 (ix3 r o k)
        * broadcastTo ⟨3, ![a, b, c]⟩ (shapeCast ⟨3, ![a, 1, c]⟩ x h3) h4 (ix3 r o k)) = _
  rw [Cert.LayoutRank3.broadcastTo_1bc_abc_apply _ h2 r o k, Cert.LayoutRank3.broadcastTo_1bc_abc_apply _ h2 r o k,
    Cert.OuterPair.right_apply x h3 h4 r o k, shapeCast_ab_1ab_apply _ h1 0 o k, shapeCast_ab_1ab_apply _ h1 0 o k,
    shapeCast_self, shapeCast_self]

end Cert.SinSum

end
-- ==== Proof.BlockValue.lean ====
/-
  What one grid point leaves in its output block, entry by entry.

  The body loads two chunks of 128 columns each of its three input blocks: `P0`, `P3` from the first table, `P1`, `P4` from the
  second, `P2`, `P5` from the 64 rows of `x` the point works on, and the row `P6` of precomputed last terms. Starting from zero
  it adds the two chunks' lane sums and then the row `P6`, repeated over the 64 rows. So entry (r, o) of the block is

      (Σ_{k < 128} P0[o, k] · sin (P1[o, k] · P2[r, k])  +  Σ_{k < 128} P3[o, k] · sin (P4[o, k] · P5[r, k]))  +  P6[0, o].
-/
import proofs.«166221_j59313498358102_2_alg».proof.Proof.Gen.KernelIdeal.Value
import proofs.«166221_j59313498358102_2_alg».proof.Proof.ChunkSum

noncomputable section

namespace Cert.SinSum.Block

open Cert.KernelIdeal Cert.KernelIdeal.Gen Cert.SinSum
open Idealize.ShloMosaic Idealize.ShloMosaic.ValueIdx

/-- The block the body leaves, read at entry (r, o). -/
theorem block_apply (P0 P1 : Vec Ideal S256x128 .f32) (P2 : Vec Ideal S64x128 .f32) (P3 P4 : Vec Ideal S256x128 .f32)
    (P5 : Vec Ideal S64x128 .f32) (P6 : Vec Ideal S1x256 .f32) (r : Fin 64) (o : Fin 256) :
    Cert.KernelIdeal.Value.E4 (F := Ideal) P0 P1 P2 P3 P4 P5 P6 (ix2 r o)
      = ((∑ k : Fin 128, P0 (ix2 o k) * Ideal.sin (P1 (ix2 o k) * P2 (ix2 r k)))
          + ∑ k : Fin 128, P3 (ix2 o k) * Ideal.sin (P4 (ix2 o k) * P5 (ix2 r k)))
        + P6 (ix2 (0 : Fin 1) o) := by
  have i0 : Cert.KernelIdeal.Value.ix4_0 (ix2 r o) = ix2 r o :=
    funext fun ax => Fin.ext (by match ax with | ⟨0, _⟩ => rfl | ⟨1, _⟩ => rfl)
  have i1 : Cert.KernelIdeal.Value.ix4_1 (ix2 r o) = ix2 r o :=
    funext fun ax => Fin.ext (by match ax with | ⟨0, _⟩ => rfl | ⟨1, _⟩ => rfl)
  have i2 : Cert.KernelIdeal.Value.ix4_2 (ix2 r o) = ix2 (0 : Fin 1) o :=
    funext fun ax => Fin.ext (by match ax with | ⟨0, _⟩ => rfl | ⟨1, _⟩ => rfl)
  show ((Ideal.ofBits .f32 0x00000000#32 + _) + _) + _ = _
  rw [i0, i1, i2, Ideal.ofBits_zero_f32, zero_add,
    chunk_apply P0 P1 P2 shapeCasts_S256x128_S256x128 shapeCasts_S256x128_S1x256x128 broadcasts_S1x256x128_S64x256x128
      shapeCasts_S64x128_S64x1x128 broadcasts_S64x1x128_S64x256x128 reduces_S64x256x128_S64x256 (.inl rfl) rfl r o,
    chunk_apply P3 P4 P5 shapeCasts_S256x128_S256x128 shapeCasts_S256x128_S1x256x128 broadcasts_S1x256x128_S64x256x128
      shapeCasts_S64x128_S64x1x128 broadcasts_S64x1x128_S64x256x128 reduces_S64x256x128_S64x256 (.inl rfl) rfl r o]

end Cert.SinSum.Block

end
-- ==== Proof.LibSumBlocks.lean ====
/-
  A sum over an index range laid out as consecutive blocks is the sum of the blocks' sums, in any commutative additive
  monoid: over a + b + c indices, the first a, the next b (shifted by a), the last c (shifted by a + b); and the same for
  two blocks. This is what joins one product against a matrix of stacked row-blocks to the sum of the products against each block.
-/
import Mathlib.Algebra.BigOperators.Fin

open scoped BigOperators

namespace Idealize.ShloMosaic.SumBlocks

variable {β : Type*} [AddCommMonoid β]

/-- Two consecutive blocks. -/
theorem sum_two (a b : ℕ) (g : Fin (a + b) → β) :
    ∑ k, g k = (∑ j : Fin a, g ⟨j.val, by omega⟩) + ∑ j : Fin b, g ⟨a + j.val, by omega⟩ := by
  rw [Fin.sum_univ_add]; rfl

/-- Three consecutive blocks. -/
theorem sum_three (a b c : ℕ) (g : Fin (a + b + c) → β) :
    ∑ k, g k = ((∑ j : Fin a, g ⟨j.val, by omega⟩) + ∑ j : Fin b, g ⟨a + j.val, by omega⟩)
      + ∑ j : Fin c, g ⟨a + b + j.val, by omega⟩ := by
  rw [Fin.sum_univ_add, Fin.sum_univ_add]; rfl

end Idealize.ShloMosaic.SumBlocks
-- ==== Proof.SinSum.lean ====
/-
  The function both programs compute, and the two arrangements of its sum.

  For `x` of extents [2048, 256] and two tables `wt`, `w` of extents [256, 257], entry (b, o) of the result is

      Σ_{k < 257}  wt[o, k] · sin (w[o, k] · x'[b, k]),

  where `x'` is `x` with one more column, of ones, appended: `x'[b, k] = x[b, k]` for `k < 256` and `x'[b, 256] = 1`.
  Splitting the 257 indices into 128 + 128 + 1 consecutive ones, and using `w · 1 = w` in the last term, the same entry is

      (Σ_{k < 128} wt[o, k] · sin (w[o, k] · x[b, k])  +  Σ_{k < 128} wt[o, 128 + k] · sin (w[o, 128 + k] · x[b, 128 + k]))
        +  wt[o, 256] · sin (w[o, 256]).

  Only commutativity and associativity of the sum and `y · 1 = y` are used, which hold for every extended real, so nothing is
  asked of the entries (they may be infinite).
-/
import Idealize.ShloMosaic.PureOps.Ideal
import Idealize.ShloMosaic.Lib.ValueIdx
import proofs.«166221_j59313498358102_2_alg».proof.Proof.LibSumBlocks

noncomputable section

namespace Cert.SinSum

open Idealize.ShloMosaic Idealize.ShloMosaic.ValueIdx

/-- The extents of `x` and of the result. -/
abbrev SX : Shape := ⟨2, ![2048, 256]⟩
/-- The extents of the two tables. -/
abbrev SW : Shape := ⟨2, ![256, 257]⟩

/-- Row `b` of `x` with a one appended: `x[b, k]` for `k < 256`, and `1` at `k = 256`. -/
def withOne (x : SX.Idx → EReal) (b : Fin 2048) (k : Fin 257) : EReal :=
  if h : k.val < 256 then x (ix2 b ⟨k.val, h⟩) else 1

theorem withOne_lt (x : SX.Idx → EReal) (b : Fin 2048) (k : Fin 257) (h : k.val < 256) :
    withOne x b k = x (ix2 b ⟨k.val, h⟩) := dif_pos h

theorem withOne_last (x : SX.Idx → EReal) (b : Fin 2048) (k : Fin 257) (h : ¬ k.val < 256) :
    withOne x b k = 1 := dif_neg h

/-- The `k`-th summand of entry (b, o). -/
def term (x : SX.Idx → EReal) (wt w : SW.Idx → EReal) (b : Fin 2048) (o : Fin 256) (k : Fin 257) : EReal :=
  wt (ix2 o k) * Ideal.sin (w (ix2 o k) * withOne x b k)

/-- The result: entry (b, o) is the sum of the 257 summands. -/
def total (x : SX.Idx → EReal) (wt w : SW.Idx → EReal) : SX.Idx → EReal :=
  fun i => ∑ k : Fin 257, term x wt w (i 0) (i 1) k

/-- The same entry with the 257 indices taken as 128 + 128 + 1 and the appended one multiplied away. -/
theorem total_split (x : SX.Idx → EReal) (wt w : SW.Idx → EReal) (b : Fin 2048) (o : Fin 256) :
    total x wt w (ix2 b o)
      = ((∑ k : Fin 128, wt (ix2 o ⟨k.val, by omega⟩) * Ideal.sin (w (ix2 o ⟨k.val, by omega⟩) * x (ix2 b ⟨k.val, by omega⟩)))
          + ∑ k : Fin 128, wt (ix2 o ⟨128 + k.val, by omega⟩)
              * Ideal.sin (w (ix2 o ⟨128 + k.val, by omega⟩) * x (ix2 b ⟨128 + k.val, by omega⟩)))
        + wt (ix2 o ⟨256, by omega⟩) * Ideal.sin (w (ix2 o ⟨256, by omega⟩)) := by
  show ∑ k : Fin 257, term x wt w b o k = _
  refine (SumBlocks.sum_three 128 128 1 (fun k : Fin 257 => term x wt w b o k)).trans ?_
  rw [Fin.sum_univ_one]
  refine congrArg₂ (· + ·) (congrArg₂ (· + ·) (Finset.sum_congr rfl fun k _ => ?_) (Finset.sum_congr rfl fun k _ => ?_)) ?_
  · show term x wt w b o ⟨k.val, _⟩ = _
    unfold term
    rw [withOne_lt x b _ (show k.val < 256 by omega)]
  · show term x wt w b o ⟨128 + k.val, _⟩ = _
    unfold term
    rw [withOne_lt x b _ (show 128 + k.val < 256 by omega)]
  · show term x wt w b o ⟨128 + 128 + (0 : Fin 1).val, _⟩ = _
    unfold term
    rw [withOne_last x b _ (show ¬ (128 + 128 + (0 : Fin 1).val < 256) by simp), mul_one]
    rfl

end Cert.SinSum

end
-- ==== Proof.PointValue.lean ====
/-
  One grid point's output block is a block of `total`.

  Stated over plain arrays: suppose the point's block `x0` of `x` holds the 64 rows of `X` from row `base` on, its blocks `x1`, `x2`
  of the two windows hold the first 256 columns of the tables `W1`, `W2`, and its row `x3` holds the last terms
  `W1[o, 256] · sin (W2[o, 256])`. Then what the body leaves at entry (r, o) of the output block is entry (base + r, o) of
  `total X W1 W2`: the body's loads are the column ranges [0, 128) and [128, 256) of these blocks, so its two lane sums are the
  first two of the three consecutive parts of the sum over 257 indices, and the row it adds last is the third part.
-/
import proofs.«166221_j59313498358102_2_alg».proof.Proof.BlockValue
import proofs.«166221_j59313498358102_2_alg».proof.Proof.SinSum

noncomputable section

namespace Cert.SinSum.Point

open Cert.KernelIdeal Cert.KernelIdeal.Gen Cert.SinSum
open Idealize.ShloMosaic Idealize.ShloMosaic.ValueIdx

/-- The load of columns [0, 128) of the block of `x`. -/
theorem ld_x_lo (x0 : Vec Ideal S64x256 .f32) (r : Fin 64) (k : Fin 128) :
    View.ld x0 r0_0 (ix2 r k) = x0 (ix2 r ⟨k.val, by omega⟩) :=
  congrArg x0 (funext fun ax => Fin.ext (by
    match ax with
    | ⟨0, _⟩ => show 0 + 1 * r.val = r.val; omega
    | ⟨1, _⟩ => show 0 + 1 * k.val = k.val; omega))

/-- The load of columns [128, 256) of the block of `x`. -/
theorem ld_x_hi (x0 : Vec Ideal S64x256 .f32) (r : Fin 64) (k : Fin 128) :
    View.ld x0 r0_2 (ix2 r k) = x0 (ix2 r ⟨128 + k.val, by omega⟩) :=
  congrArg x0 (funext fun ax => Fin.ext (by
    match ax with
    | ⟨0, _⟩ => show 0 + 1 * r.val = r.val; omega
    | ⟨1, _⟩ => show 128 + 1 * k.val = 128 + k.val; omega))

/-- The load of columns [0, 128) of a table's block. -/
theorem ld_t_lo (x1 : Vec Ideal S256x256 .f32) (o : Fin 256) (k : Fin 128) :
    View.ld x1 r0_1 (ix2 o k) = x1 (ix2 o ⟨k.val, by omega⟩) :=
  congrArg x1 (funext fun ax => Fin.ext (by
    match ax with
    | ⟨0, _⟩ => show 0 + 1 * o.val = o.val; omega
    | ⟨1, _⟩ => show 0 + 1 * k.val = k.val; omega))

/-- The load of columns [128, 256) of a table's block. -/
theorem ld_t_hi (x1 : Vec Ideal S256x256 .f32) (o : Fin 256) (k : Fin 128) :
    View.ld x1 r0_3 (ix2 o k) = x1 (ix2 o ⟨128 + k.val, by omega⟩) :=
  congrArg x1 (funext fun ax => Fin.ext (by
    match ax with
    | ⟨0, _⟩ => show 0 + 1 * o.val = o.val; omega
    | ⟨1, _⟩ => show 128 + 1 * k.val = 128 + k.val; omega))

/-- The load of the whole row of last terms. -/
theorem ld_row (x3 : Vec Ideal S1x256 .f32) (o : Fin 256) :
    View.ld x3 r0_4 (ix2 (0 : Fin 1) o) = x3 (ix2 (0 : Fin 1) o) :=
  congrArg x3 (funext fun ax => Fin.ext (by
    match ax with
    | ⟨0, _⟩ => rfl
    | ⟨1, _⟩ => show 0 + 1 * o.val = o.val; omega))

/-- Entry (r, o) of what the body leaves is entry (b, o) of `total`, for the row `b = base + r`. -/
theorem point_entry (x0 : Vec Ideal S64x256 .f32) (x1 x2 : Vec Ideal S256x256 .f32) (x3 : Vec Ideal S1x256 .f32)
    (X : SX.Idx → EReal) (W1 W2 : SW.Idx → EReal) (base : ℕ)
    (hx0 : ∀ (r : Fin 64) (k : Fin 256) (b : Fin 2048), b.val = base + r.val → x0 (ix2 r k) = X (ix2 b k))
    (hx1 : ∀ o k : Fin 256, x1 (ix2 o k) = W1 (ix2 o ⟨k.val, by omega⟩))
    (hx2 : ∀ o k : Fin 256, x2 (ix2 o k) = W2 (ix2 o ⟨k.val, by omega⟩))
    (hx3 : ∀ o : Fin 256, x3 (ix2 (0 : Fin 1) o) = W1 (ix2 o ⟨256, by omega⟩) * Ideal.sin (W2 (ix2 o ⟨256, by omega⟩)))
    (r : Fin 64) (o : Fin 256) (b : Fin 2048) (hb : b.val = base + r.val) :
    out0_4 x0 x1 x2 x3 (ix2 r o) = total X W1 W2 (ix2 b o) := by
  unfold out0_4
  refine (Cert.KernelIdeal.Value.canon4_eq _ _ _ _ _ _ _ (ix2 r o)).trans ?_
  rw [Block.block_apply, total_split]
  refine congrArg₂ (· + ·) (congrArg₂ (· + ·) (Finset.sum_congr rfl fun k _ => ?_) (Finset.sum_congr rfl fun k _ => ?_)) ?_
  · rw [ld_t_lo, ld_t_lo, ld_x_lo, hx1, hx2, hx0 r _ b hb]
  · rw [ld_t_hi, ld_t_hi, ld_x_hi, hx1, hx2, hx0 r _ b hb]
  · rw [ld_row, hx3]

/-- The same with both indices given by coordinate equations. -/
theorem point_value (x0 : Vec Ideal S64x256 .f32) (x1 x2 : Vec Ideal S256x256 .f32) (x3 : Vec Ideal S1x256 .f32)
    (X : SX.Idx → EReal) (W1 W2 : SW.Idx → EReal) (base : ℕ)
    (hx0 : ∀ (r : Fin 64) (k : Fin 256) (b : Fin 2048), b.val = base + r.val → x0 (ix2 r k) = X (ix2 b k))
    (hx1 : ∀ o k : Fin 256, x1 (ix2 o k) = W1 (ix2 o ⟨k.val, by omega⟩))
    (hx2 : ∀ o k : Fin 256, x2 (ix2 o k) = W2 (ix2 o ⟨k.val, by omega⟩))
    (hx3 : ∀ o : Fin 256, x3 (ix2 (0 : Fin 1) o) = W1 (ix2 o ⟨256, by omega⟩) * Ideal.sin (W2 (ix2 o ⟨256, by omega⟩)))
    (y : S64x256.Idx) (i : SX.Idx) (hi0 : (i 0).val = base + (y 0).val) (hi1 : (i 1).val = (y 1).val) :
    out0_4 x0 x1 x2 x3 y = total X W1 W2 i := by
  obtain ⟨r, o, rfl⟩ : ∃ (r : Fin 64) (o : Fin 256), y = ix2 r o := ⟨y 0, y 1, eq_ix2 y⟩
  obtain ⟨b, o', rfl⟩ : ∃ (b : Fin 2048) (o' : Fin 256), i = ix2 b o' := ⟨i 0, i 1, eq_ix2 i⟩
  obtain rfl : o' = o := Fin.ext hi1
  exact point_entry x0 x1 x2 x3 X W1 W2 base hx0 hx1 hx2 hx3 r o' b hi0

end Cert.SinSum.Point

end
-- ==== Proof.HostPrefix.lean ====
/-
  What the region finds in the arrays that the program computes before it.

  Before the region the program cuts the first 256 columns out of each table (the arrays of windows 1 and 2) and, from the
  tables' last column, forms the row of last terms `wt[o, 256] · sin (w[o, 256])` (the array of window 3: the column is cut out
  as [256, 1], flattened to [256], the sine and the product taken entry by entry, and the result given a leading unit axis).
-/
import proofs.«166221_j59313498358102_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.SinSum.Host

open Cert.KernelIdeal Cert.KernelIdeal.Gen
open Idealize.ShloMosaic Idealize.ShloMosaic.TcCoe Idealize.SL.Sem Idealize.ShloMosaic.ValueIdx Idealize.ShloMosaic.StableHlo

/-- A column `[a, 1]` flattened to `[a]` reads, at `i`, the operand at `(i, 0)`: both have row-major position `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ)

/-- The first table as launched, as a plain array. -/
abbrev tab1 (c : Dev nD) : FVec Ideal S256x257 .f32 := m ((c : Thread nD τ).loc main_arg1)
/-- The second table as launched, as a plain array. -/
abbrev tab2 (c : Dev nD) : FVec Ideal S256x257 .f32 := m ((c : Thread nD τ).loc main_arg2)

/-- Window 1's array: the first table without its last column. -/
theorem V_v0 (c : Dev nD) : (V m c main_v0 : S256x256.Idx → EReal)
    = extractStridedSlice S256x256 ![0, 0] (m ((c : Thread nD τ).loc main_arg1)) slices_S256x257_S256x256_0_0 := by
  dsimp only [Gen.V, Gen.hostOps0]; after_results

/-- Window 2's array: the second table without its last column. -/
theorem V_v1 (c : Dev nD) : (V m c main_v1 : S256x256.Idx → EReal)
    = extractStridedSlice S256x256 ![0, 0] (m ((c : Thread nD τ).loc main_arg2)) slices_S256x257_S256x256_0_0 := by
  dsimp only [Gen.V, Gen.hostOps0]; after_results

/-- Window 3's array: the row of last terms. -/
theorem V_v8 (c : Dev nD) : (V m c main_v8 : S1x256.Idx → EReal)
    = (shapeCast S1x256
        (mulf (F := Ideal) (shapeCast S256 (extractStridedSlice S256x1 ![0, 256] (m ((c : Thread nD τ).loc main_arg1) : FVec Ideal S256x257 .f32) slices_S256x257_S256x1_0_256) shapeCasts_S256x1_S256)
          (Host.sin (F := Ideal) (shapeCast S256 (extractStridedSlice S256x1 ![0, 256] (m ((c : Thread nD τ).loc main_arg2) : FVec Ideal S256x257 .f32) slices_S256x257_S256x1_0_256) shapeCasts_S256x1_S256)))
        shapeCasts_S256_S1x256 : FVec Ideal S1x256 .f32) := by
  dsimp only [Gen.V, Gen.hostOps0]; after_results; rfl

/-- Window 1's array at (o, k) is the first table at (o, k). -/
theorem V_v0_apply (c : Dev nD) (o k : Fin 256) :
    (V m c main_v0 : S256x256.Idx → EReal) (ix2 o k) = (m ((c : Thread nD τ).loc main_arg1) : S256x257.Idx → EReal) (ix2 o ⟨k.val, by omega⟩) := by
  rw [V_v0]
  exact slice2_axis1_apply 0 _ slices_S256x257_S256x256_0_0 o k ⟨k.val, by omega⟩ (Nat.zero_add _).symm

/-- Window 2's array at (o, k) is the second table at (o, k). -/
theorem V_v1_apply (c : Dev nD) (o k : Fin 256) :
    (V m c main_v1 : S256x256.Idx → EReal) (ix2 o k) = (m ((c : Thread nD τ).loc main_arg2) : S256x257.Idx → EReal) (ix2 o ⟨k.val, by omega⟩) := by
  rw [V_v1]
  exact slice2_axis1_apply 0 _ slices_S256x257_S256x256_0_0 o k ⟨k.val, by omega⟩ (Nat.zero_add _).symm

/-- Window 3's array at (0, o) is the last term of output column `o`. -/
theorem V_v8_apply (c : Dev nD) (o : Fin 256) :
    (V m c main_v8 : S1x256.Idx → EReal) (ix2 (0 : Fin 1) o)
      = tab1 m c (ix2 o ⟨256, by omega⟩) * Ideal.sin (tab2 m c (ix2 o ⟨256, by omega⟩)) := by
  rw [V_v8]
  refine (shapeCast_a_1a_apply _ shapeCasts_S256_S1x256 0 o).trans ?_
  show shapeCast S256 _ shapeCasts_S256x1_S256 (ix1 o) * Ideal.sin (shapeCast S256 _ shapeCasts_S256x1_S256 (ix1 o)) = _
  rw [shapeCast_a1_a_apply _ shapeCasts_S256x1_S256 o, shapeCast_a1_a_apply _ shapeCasts_S256x1_S256 o,
    slice2_axis1_apply 256 _ slices_S256x257_S256x1_0_256 o (0 : Fin 1) ⟨256, by omega⟩ rfl,
    slice2_axis1_apply 256 _ slices_S256x257_S256x1_0_256 o (0 : Fin 1) ⟨256, by omega⟩ rfl]

end Cert.SinSum.Host

end
-- ==== Proof.KernelValue.lean ====
/-
  The kernel's result array is `total` of its arguments.

  The grid has 32 points; point `t` works on rows [64 t, 64 t + 64) of `x` and of the result, and sees the two cut tables and
  the row of last terms whole at every point. What point `t` writes back is therefore block `t` of `total` (the per-point
  statement, with the windows' arrays read as the region finds them), the 32 blocks tile the result, and so after the run
  the result array is `total` of the three arguments.
-/
import proofs.«166221_j59313498358102_2_alg».proof.Proof.PointValue
import proofs.«166221_j59313498358102_2_alg».proof.Proof.HostPrefix

noncomputable section

namespace Cert.SinSum.Kernel

open Cert.KernelIdeal Cert.KernelIdeal.Gen Cert.SinSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The block indices over the grid: the block of `x` moves with the output's block along the rows, every other input
    block stays at the origin, and the output's block row is one of 0 … 31. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 31 ∧ win0_4.index t (1 : Fin 2) = 0 :=
  (by decide +kernel : ∀ t : Fin grid0.N, _)

/-- Every block row of the result is some point's. -/
theorem idx_onto : ∀ q : Fin 32, ∃ t : Fin cfg0.N, win0_4.index t = ![q.val, 0] :=
  (by decide +kernel : ∀ q : Fin 32, ∃ t : Fin grid0.N, win0_4.index t = ![q.val, 0])

/-- What point `t` writes back is block `t` of `total` of the arguments. -/
theorem flushed_eq (c : Dev nD) (t : Fin cfg0.N) :
    (dats m 0 c).flushed 4 t = ((cfg0.win 4).blk t).view.read (Elt Ideal)
      (total (m ((c : Thread nD τ).loc main_arg0)) (m ((c : Thread nD τ).loc main_arg1)) (m ((c : Thread nD τ).loc main_arg2))) := by
  rw [Cert.KernelIdeal.Value.flushed4]
  obtain ⟨e0, e1, e2, e3, e4, e5, e6, e7, e8, e9⟩ := idx_facts t
  funext j
  show out0_4 (iblk m c 0 t) (iblk m c 1 t) (iblk m c 2 t) (iblk m c 3 t) j
    = total (m ((c : Thread nD τ).loc main_arg0)) (m ((c : Thread nD τ).loc main_arg1)) (m ((c : Thread nD τ).loc main_arg2))
        (((cfg0.win 4).blk t).view.emb j)
  refine Point.point_value (iblk m c 0 t) (iblk m c 1 t) (iblk m c 2 t) (iblk m c 3 t) _ _ _ (win0_4.index t (0 : Fin 2) * 64)
    ?_ ?_ ?_ ?_ j _ ?_ ?_
  · intro r k b hb
    show V m c main_arg0 (((cfg0.win 0).blk t).view.emb (ix2 r k)) = _
    rw [V_main_arg0]
    refine congrArg _ (funext fun ax => Fin.ext ?_)
    match ax with
    | ⟨0, _⟩ => show win0_0.index t (0 : Fin 2) * 64 + 1 * r.val = b.val; omega
    | ⟨1, _⟩ => show win0_0.index t (1 : Fin 2) * 256 + 1 * k.val = k.val; omega
  · intro o k
    show V m c main_v0 (((cfg0.win 1).blk t).view.emb (ix2 o k)) = _
    refine Eq.trans (congrArg _ (funext fun ax => Fin.ext ?_)) (Host.V_v0_apply m c o k)
    match ax with
    | ⟨0, _⟩ => show win0_1.index t (0 : Fin 2) * 256 + 1 * o.val = o.val; omega
    | ⟨1, _⟩ => show win0_1.index t (1 : Fin 2) * 256 + 1 * k.val = k.val; omega
  · intro o k
    show V m c main_v1 (((cfg0.win 2).blk t).view.emb (ix2 o k)) = _
    refine Eq.trans (congrArg _ (funext fun ax => Fin.ext ?_)) (Host.V_v1_apply m c o k)
    match ax with
    | ⟨0, _⟩ => show win0_2.index t (0 : Fin 2) * 256 + 1 * o.val = o.val; omega
    | ⟨1, _⟩ => show win0_2.index t (1 : Fin 2) * 256 + 1 * k.val = k.val; omega
  · intro o
    show V m c main_v8 (((cfg0.win 3).blk t).view.emb (ix2 (0 : Fin 1) o)) = _
    refine Eq.trans (congrArg _ (funext fun ax => Fin.ext ?_)) (Host.V_v8_apply m c o)
    match ax with
    | ⟨0, _⟩ => show win0_3.index t (0 : Fin 2) * 1 + 1 * 0 = 0; omega
    | ⟨1, _⟩ => show win0_3.index t (1 : Fin 2) * 256 + 1 * o.val = o.val; omega
  · show win0_4.index t (0 : Fin 2) * 64 + 1 * (j 0).val = win0_4.index t (0 : Fin 2) * 64 + (j 0).val
    omega
  · show win0_4.index t (1 : Fin 2) * 256 + 1 * (j 1).val = (j 1).val
    omega

/-- An index of the result is in point `t`'s block iff each coordinate is in the block's range on its axis. -/
theorem mem_blk (t : Fin cfg0.N) (i : S2048x256.Idx) :
    i ∈ ((cfg0.win 4).blk t).view.set ↔ ∀ a : Fin 2, win0_4.index t a * S64x256.size a ≤ (i a).val ∧ (i a).val < win0_4.index t a * S64x256.size a + S64x256.size a := by
  show i ∈ ((View.whole main_v9).slice (win0_4.rect t)).set ↔ _
  rw [View.set_slice_whole, Rect.mem_set_unit]
  exact Iff.rfl

/-- The 32 blocks cover the result: row `b` is in the block of the point whose block row is `b / 64`. -/
theorem cover (i : S2048x256.Idx) : ∃ t : Fin cfg0.N, (cfg0.win 4).flush t = true ∧ i ∈ ((cfg0.win 4).blk t).view.set := by
  have hi0 : (i 0).val < 2048 := (i 0).isLt
  have hi1 : (i 1).val < 256 := (i 1).isLt
  obtain ⟨t, ht⟩ := idx_onto ⟨(i 0).val / 64, by omega⟩
  have q0 : win0_4.index t (0 : Fin 2) = (i 0).val / 64 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 256 ≤ (i 1).val ∧ (i 1).val < win0_4.index t (1 : Fin 2) * 256 + 256; omega

/-- The result array after the run. -/
theorem final (c : Dev nD) : (dats m 0 c).arrAt 4 cfg0.N
    = total (m ((c : Thread nD τ).loc main_arg0)) (m ((c : Thread nD τ).loc main_arg1)) (m ((c : Thread nD τ).loc main_arg2)) :=
  (dats m 0 c).arrAt_eq_of_cover 4 _ (fun t _ => flushed_eq m c t) cover

/-- The run: the result at `total` of the arguments, the arguments unchanged. -/
theorem run : θ_run defs (onTc (τ := τ) (main (F := Ideal))) ⟨m, fun _ => 0, ρ⟩ fun r => ∀ c : Dev nD,
      r.2.mem ((c : Thread nD τ).loc main_v9)
        = total (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.SinSum.Kernel

end
-- ==== Proof.RefValue.lean ====
/-
  The reference's result is `total`.

  The reference appends a column of ones to `x` (a concatenation along the second axis of `x` and a [2048, 1] array filled with
  the word of 1.0), lays the two tables and the extended `x` out over [2048, 256, 257] — position (b, o, k) reads `wt[o, k]`,
  `w[o, k]` and `x'[b, k]` —, forms `wt · sin (w · x')` there and sums over the last axis starting from the word of 0.0.
  Read at entry (b, o): the starting value is 0, and the `k`-th summand is `term x wt w b o k`.
-/
import proofs.«166221_j59313498358102_2_alg».proof.Proof.Gen.ReferenceIdeal.Read
import proofs.«166221_j59313498358102_2_alg».proof.Proof.SinSum
import Idealize.ShloMosaic.Lib.IdealHost

noncomputable section

namespace Cert.SinSum.Ref

open Cert.ReferenceIdeal Cert.ReferenceIdeal.Gen Cert.ReferenceIdeal.Read Cert.SinSum
open Idealize.ShloMosaic Idealize.ShloMosaic.ValueIdx

/-- The extended `x`: in the first 256 columns the concatenation reads `x`, in the last one the array of ones. -/
theorem withOne_read (x0 : FVec Ideal S2048x256 .f32) (b : Fin 2048) (k : Fin 257) :
    val_main_v1 (F := Ideal) x0 (ix2 b k) = withOne x0 b k := by
  unfold val_main_v1
  by_cases h : k.val < 256
  · rw [withOne_lt x0 b k h]
    exact concatenate_pair_apply_left (s₂ := S2048x1) (1 : Fin 2) x0 (val_main_v0 (F := Ideal)) concatenates_S2048x256_S2048x1_S2048x257_d1 (ix2 b k) rfl
      (ix2 b ⟨k.val, h⟩) (fun ax => by match ax with | ⟨0, _⟩ => rfl | ⟨1, _⟩ => rfl)
  · rw [withOne_last x0 b k h]
    refine (concatenate_pair_apply_right (s₂ := S2048x1) (1 : Fin 2) x0 (val_main_v0 (F := Ideal)) concatenates_S2048x256_S2048x1_S2048x257_d1 (ix2 b k) rfl rfl
      (ix2 b (0 : Fin 1)) (fun ax hne => by
        match ax, hne with
        | ⟨0, _⟩, _ => rfl
        | ⟨1, _⟩, hne => exact absurd rfl hne) (by
        have hk := k.isLt
        show 0 + 256 = k.val
        omega)).trans ?_
    rw [val_main_v0_apply, val_main_cst_apply]
    exact Ideal.ofBits_one_f32

/-- The reference's last stage, entry by entry, is the sum of the 257 summands. -/
theorem ref_total (x0 : FVec Ideal S2048x256 .f32) (x1 x2 : FVec Ideal S256x257 .f32) :
    val_main_v11 (F := Ideal) x0 x1 x2 = total x0 x1 x2 := by
  funext i
  obtain ⟨b, o, rfl⟩ : ∃ (b : Fin 2048) (o : Fin 256), i = ix2 b o := ⟨i 0, i 1, eq_ix2 i⟩
  rw [val_main_v11_apply]
  have hz : (val_main_cst_0 (F := Ideal)) (Shape.Idx.first h_S_) = 0 := Ideal.ofBits_zero_f32
  rw [hz, zero_add]
  show _ = ∑ k : Fin 257, term x0 x1 x2 b o k
  refine Finset.sum_congr rfl fun k _ => ?_
  have e1 : idx_main_v2 (idx_main_v9 (idx_main_v11 (ix2 b o) k)) = ix2 o k :=
    funext fun ax => Fin.ext (by match ax with | ⟨0, _⟩ => rfl | ⟨1, _⟩ => rfl)
  have e2 : idx_main_v3 (idx_main_v5 (idx_main_v11 (ix2 b o) k)) = ix2 o k :=
    funext fun ax => Fin.ext (by match ax with | ⟨0, _⟩ => rfl | ⟨1, _⟩ => rfl)
  have e3 : idx_main_v4 (idx_main_v6 (idx_main_v11 (ix2 b o) k)) = ix2 b k :=
    funext fun ax => Fin.ext (by match ax with | ⟨0, _⟩ => rfl | ⟨1, _⟩ => rfl)
  rw [val_main_v10_apply, val_main_v9_apply, val_main_v2_apply, val_main_v8_apply, val_main_v7_apply, val_main_v5_apply,
    val_main_v3_apply, val_main_v6_apply, val_main_v4_apply, e1, e2, e3, withOne_read]
  rfl

end Cert.SinSum.Ref

end
-- ==== Proof.lean ====
/-
  A weighted sum of sines, tiled over rows and split along the summed axis, against the plain sum.

  Inputs: `x` of extents [2048, 256] and two tables `wt`, `w` of extents [256, 257]. Both programs compute, at entry (b, o),

      Σ_{k < 257}  wt[o, k] · sin (w[o, k] · x'[b, k]),       x' = x with a column of ones appended.

  The reference forms `x'` by a concatenation, lays the three arrays out over [2048, 256, 257] and sums over the last axis from
  zero. The kernel never forms `x'`: before its grid it cuts the first 256 columns out of both tables and computes the last
  summand `wt[o, 256] · sin (w[o, 256])` as a row (the factor `x'[b, 256] = 1` multiplied away); each of its 32 grid points takes
  64 rows of `x`, sums the summands of columns [0, 128) and of columns [128, 256) separately, and adds the two sums and the row
  to zero. So the two results differ only by `y · 1 = y`, `0 + y = y` and the grouping of a finite sum into three consecutive
  parts — laws of every extended real, whence the hypothesis that the inputs are finite is not used. The sine is one function
  on both sides (the vector operation and the host's are the same function of an extended real).

  The modules: `SinSum` (the function `total` and its three-part form), `ChunkSum` and `BlockValue` (the body's lane sums and the
  block a point leaves, entry by entry), `HostPrefix` (the arrays computed before the grid), `PointValue` and `KernelValue` (a
  point writes a block of `total`; the blocks tile the result), `RefValue` (the reference's last stage is `total`).
-/
import proofs.«166221_j59313498358102_2_alg».proof.Defs
import proofs.«166221_j59313498358102_2_alg».proof.Proof.Gen.Kernel
import proofs.«166221_j59313498358102_2_alg».proof.Proof.Gen.Kernel.Skeleton
import proofs.«166221_j59313498358102_2_alg».proof.Proof.Gen.Kernel.Launch
import proofs.«166221_j59313498358102_2_alg».proof.Proof.Gen.Kernel.Points
import proofs.«166221_j59313498358102_2_alg».proof.Proof.Gen.Kernel.Frame
import proofs.«166221_j59313498358102_2_alg».proof.Proof.Gen.KernelIdeal
import proofs.«166221_j59313498358102_2_alg».proof.Proof.Gen.KernelIdeal.Skeleton
import proofs.«166221_j59313498358102_2_alg».proof.Proof.Gen.KernelIdeal.Launch
import proofs.«166221_j59313498358102_2_alg».proof.Proof.Gen.KernelIdeal.Points
import proofs.«166221_j59313498358102_2_alg».proof.Proof.Gen.KernelIdeal.Frame
import proofs.«166221_j59313498358102_2_alg».proof.Proof.Gen.ReferenceIdeal
import proofs.«166221_j59313498358102_2_alg».proof.Proof.Gen.KernelIdeal.Value
import proofs.«166221_j59313498358102_2_alg».proof.Proof.Gen.ReferenceIdeal.Run
import proofs.«166221_j59313498358102_2_alg».proof.Proof.Gen.ReferenceIdeal.Read
import proofs.«166221_j59313498358102_2_alg».proof.Proof.Gen.Pre_finite_inputs
import proofs.«166221_j59313498358102_2_alg».proof.Proof.KernelValue
import proofs.«166221_j59313498358102_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both results are `total` of the arguments: the kernel's by the tiling of the result into the points' blocks, the
    reference's stage by stage. -/
theorem algebraic : Cert.algebraic_KernelIdeal_ReferenceIdeal := by
  intro m ρ m' ρ' _ hagree
  refine ⟨_, Cert.SinSum.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v11_eq _ _ _).trans (Cert.SinSum.Ref.ref_total _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
